-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x259x128 : Shape := ⟨4, ![16, 1, 259, 128]⟩
abbrev S_ : Shape := ⟨0, ![]⟩

class Facts : Prop where
  bcast_S_S16x1x259x128 : S_.BroadcastsInDim S16x1x259x128 (![] : Fin 0 → Fin S16x1x259x128.rank)
  reducesTo_S16x1x259x128_S_d0_1_2_3 : S16x1x259x128.ReducesTo [0, 1, 2, 3] S_
  h_S_ : 0 < S_.numel

variable [Facts]

def fn {F : FTy → Type} [FloatOps F] (main_arg0 : FVec F S16x1x259x128 .f32) (main_arg1 : FVec F S16x1x259x128 .f32) : IVec S_ 1 :=
  let main_v0 : FVec F S16x1x259x128 .f32 := Host.absf main_arg0
  let main_cst : FVec F S_ .f32 := constant S_ .f32 0x7F800000#32
  let main_v1 : FVec F S16x1x259x128 .f32 := broadcastInDim S16x1x259x128 ![] bcast_S_S16x1x259x128 main_cst
  let main_v2 : IVec S16x1x259x128 1 := cmpf .olt main_v0 main_v1
  let main_c : IVec S_ 1 := constantI S_ 1 1#1
  let main_v3 : IVec S_ 1 := (fun x v => Host.reduce IntOp.andi x v reducesTo_S16x1x259x128_S_d0_1_2_3 h_S_) main_v2 main_c
  let main_v4 : FVec F S16x1x259x128 .f32 := Host.absf main_arg1
  let main_cst_0 : FVec F S_ .f32 := constant S_ .f32 0x7F800000#32
  let main_v5 : FVec F S16x1x259x128 .f32 := broadcastInDim S16x1x259x128 ![] bcast_S_S16x1x259x128 main_cst_0
  let main_v6 : IVec S16x1x259x128 1 := cmpf .olt main_v4 main_v5
  let main_c_1 : IVec S_ 1 := constantI S_ 1 1#1
  let main_v7 : IVec S_ 1 := (fun x v => Host.reduce IntOp.andi x v reducesTo_S16x1x259x128_S_d0_1_2_3 h_S_) main_v6 main_c_1
  let main_v8 : IVec S_ 1 := andi main_v3 main_v7
  main_v8
-- ==== Kernel.lean ====
abbrev S16x1x259x128 : Shape := ⟨4, ![16, 1, 259, 128]⟩
abbrev S16x259x128 : Shape := ⟨3, ![16, 259, 128]⟩
abbrev S16x256x128 : Shape := ⟨3, ![16, 256, 128]⟩
abbrev S4x259x128 : Shape := ⟨3, ![4, 259, 128]⟩
abbrev S4x256x128 : Shape := ⟨3, ![4, 256, 128]⟩
abbrev S4x259x259 : Shape := ⟨3, ![4, 259, 259]⟩
abbrev S4x259 : Shape := ⟨2, ![4, 259]⟩
abbrev S4x259x1 : Shape := ⟨3, ![4, 259, 1]⟩
abbrev S4x1x259 : Shape := ⟨3, ![4, 1, 259]⟩
abbrev S16x1x256x128 : Shape := ⟨4, ![16, 1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x1x259x128, .f32⟩
  | .hbm, ⟨1, _⟩ => ⟨S16x1x259x128, .f32⟩
  | .hbm, ⟨2, _⟩ => ⟨S16x259x128, .f32⟩
  | .hbm, ⟨3, _⟩ => ⟨S16x259x128, .f32⟩
  | .hbm, ⟨4, _⟩ => ⟨S16x256x128, .f32⟩
  | .hbm, ⟨5, _⟩ => ⟨S16x256x128, .f32⟩
  | .hbm, ⟨6, _⟩ => ⟨S16x1x256x128, .f32⟩
  | .hbm, ⟨7, _⟩ => ⟨S16x1x256x128, .f32⟩
  | .local _ .vmem, ⟨0, _⟩ => ⟨S4x259x128, .f32⟩
  | .local _ .vmem, ⟨1, _⟩ => ⟨S4x259x128, .f32⟩
  | .local _ .vmem, ⟨2, _⟩ => ⟨S4x259x128, .f32⟩
  | .local _ .vmem, ⟨3, _⟩ => ⟨S4x259x128, .f32⟩
  | .local _ .vmem, ⟨4, _⟩ => ⟨S4x256x128, .f32⟩
  | .local _ .vmem, ⟨5, _⟩ => ⟨S4x256x128, .f32⟩
  | .local _ .vmem, ⟨6, _⟩ => ⟨S4x256x128, .f32⟩
  | .local _ .vmem, ⟨7, _⟩ => ⟨S4x256x128, .f32⟩
  | _, _ => ⟨S16x1x259x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x259x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x259x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x1x259x128_S16x259x128 : S16x1x259x128.ShapeCasts S16x259x128
  inb_S4x259x128_S4x259x128_0_0_0 : ∀ a, (![0, 0, 0] : Fin 3 → Nat) a + S4x259x128.size a ≤ S4x259x128.size a
  h_S4x259x128 : 0 < S4x259x128.numel
  shapeCasts_S4x259x128_S4x259x128 : S4x259x128.ShapeCasts S4x259x128
  bitsLt_bf16_f32 : FTy.bits .bf16 < FTy.bits .f32
  reduces_S4x259x128_S4x259 : S4x259x128.Reduces [2] S4x259
  shapeCasts_S4x259_S4x259x1 : S4x259.ShapeCasts S4x259x1
  transposes_S4x259x1_p0_2_1_S4x1x259 : S4x259x1.Transposes [0, 2, 1] S4x1x259
  broadcasts_S4x259x1_S4x259x259 : S4x259x1.Broadcasts S4x259x259
  broadcasts_S4x1x259_S4x259x259 : S4x1x259.Broadcasts S4x259x259
  reduces_S4x259x259_S4x259 : S4x259x259.Reduces [2] S4x259
  reduces_S4x259x259_S4x259_2 : S4x259x259.Reduces [1] S4x259
  shapeCasts_S4x259_S4x1x259 : S4x259.ShapeCasts S4x1x259
  transposes_S4x1x259_p0_2_1_S4x259x1 : S4x1x259.Transposes [0, 2, 1] S4x259x1
  broadcasts_S4x259x1_S4x259x128 : S4x259x1.Broadcasts S4x259x128
  slices_S4x259x128_o0_0_0_S4x256x128 : S4x259x128.Slices ![0, 0, 0] S4x256x128
  slices_S4x259x128_o0_1_0_S4x256x128 : S4x259x128.Slices ![0, 1, 0] S4x256x128
  slices_S4x259x128_o0_2_0_S4x256x128 : S4x259x128.Slices ![0, 2, 0] S4x256x128
  slices_S4x259x128_o0_3_0_S4x256x128 : S4x259x128.Slices ![0, 3, 0] S4x256x128
  inb_S4x256x128_S4x256x128_0_0_0 : ∀ a, (![0, 0, 0] : Fin 3 → Nat) a + S4x256x128.size a ≤ S4x256x128.size a
  h_S4x256x128 : 0 < S4x256x128.numel
  bcast_S16x256x128_S16x1x256x128_0_2_3 : S16x256x128.BroadcastsInDim S16x1x256x128 (![0, 2, 3] : Fin 3 → Fin S16x1x256x128.rank)
  dot_S4x259x128_S4x259x128_S4x259x259_2_2_1_1_0_0_wf : DotDims.WF S4x259x128 S4x259x128 S4x259x259 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x259x128.size a ≤ S16x259x128.size a
  hwx0_0 : ∀ i : grid0.Coords, EltTy.bits .f32 = 32 ∨ (Rect.block (s := S16x259x128) S4x259x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x259x128.size a ≤ S16x259x128.size a
  hwx0_1 : ∀ i : grid0.Coords, EltTy.bits .f32 = 32 ∨ (Rect.block (s := S16x259x128) S4x259x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x128.size a ≤ S16x256x128.size a
  hwx0_2 : ∀ i : grid0.Coords, EltTy.bits .f32 = 32 ∨ (Rect.block (s := S16x256x128) S4x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x128.size a ≤ S16x256x128.size a
  hwx0_3 : ∀ i : grid0.Coords, EltTy.bits .f32 = 32 ∨ (Rect.block (s := S16x256x128) S4x256x128.size (cc0_transform_3 i) (hinb0_3 i)).WholeWords (EltTy.packing .f32)

variable [Facts₀]

def dot_S4x259x128_S4x259x128_S4x259x259_2_2_1_1_0_0 : DotDims S4x259x128 S4x259x128 S4x259x259 where
  lhsContracting := [2]
  rhsContracting := [2]
  lhsNonContracting := [1]
  rhsNonContracting := [1]
  lhsBatch := [0]
  rhsBatch := [0]
  wf := dot_S4x259x128_S4x259x128_S4x259x259_2_2_1_1_0_0_wf

abbrev win0_0 : Pipeline.Window sig grid0 :=
  Pipeline.Window.ofSpec (Memref.whole main_v0) S4x259x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x259x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x259x128 : Shape := ⟨4, ![16, 1, 259, 128]⟩
abbrev S16x259x1x128 : Shape := ⟨4, ![16, 259, 1, 128]⟩
abbrev S16x259x259x128 : Shape := ⟨4, ![16, 259, 259, 128]⟩
abbrev S_ : Shape := ⟨0, ![]⟩
abbrev S16x259x259 : Shape := ⟨3, ![16, 259, 259]⟩
abbrev S16x259 : Shape := ⟨2, ![16, 259]⟩
abbrev S16x1x259x1 : Shape := ⟨4, ![16, 1, 259, 1]⟩
abbrev S16x1x256x128 : Shape := ⟨4, ![16, 1, 256, 128]⟩

abbrev nBuf : Space → Nat
  | .hbm => 43
  | .vmem => 0
  | .smem => 0
  | _ => 0

abbrev bufTy : (tb : Table) → Fin (tcTables nBuf tb) → BufTy
  | .hbm, ⟨0, _⟩ => ⟨S16x1x259x128, .f32⟩
  | .hbm, ⟨1, _⟩ => ⟨S16x1x259x128, .f32⟩
  | .hbm, ⟨2, _⟩ => ⟨S16x259x1x128, .f32⟩
  | .hbm, ⟨3, _⟩ => ⟨S16x259x259x128, .f32⟩
  | .hbm, ⟨4, _⟩ => ⟨S16x259x259x128, .f32⟩
  | .hbm, ⟨5, _⟩ => ⟨S16x259x259x128, .f32⟩
  | .hbm, ⟨6, _⟩ => ⟨S16x259x259x128, .f32⟩
  | .hbm, ⟨7, _⟩ => ⟨S_, .f32⟩
  | .hbm, ⟨8, _⟩ => ⟨S16x259x259, .f32⟩
  | .hbm, ⟨9, _⟩ => ⟨S_, .f32⟩
  | .hbm, ⟨10, _⟩ => ⟨S16x259x259, .f32⟩
  | .hbm, ⟨11, _⟩ => ⟨S16x259x259, .f32⟩
  | .hbm, ⟨12, _⟩ => ⟨S16x259x259, .f32⟩
  | .hbm, ⟨13, _⟩ => ⟨S_, .f32⟩
  | .hbm, ⟨14, _⟩ => ⟨S16x259x259, .f32⟩
  | .hbm, ⟨15, _⟩ => ⟨S16x259x259, .f32⟩
  | .hbm, ⟨16, _⟩ => ⟨S_, .f32⟩
  | .hbm, ⟨17, _⟩ => ⟨S16x259x259, .f32⟩
  | .hbm, ⟨18, _⟩ => ⟨S16x259x259, .f32⟩
  | .hbm, ⟨19, _⟩ => ⟨S_, .f32⟩
  | .hbm, ⟨20, _⟩ => ⟨S16x259, .f32⟩
  | .hbm, ⟨21, _⟩ => ⟨S_, .f32⟩
  | .hbm, ⟨22, _⟩ => ⟨S16x259, .f32⟩
  | .hbm, ⟨23, _⟩ => ⟨S16x1x259x1, .f32⟩
  | .hbm, ⟨24, _⟩ => ⟨S16x1x259x128, .f32⟩
  | .hbm, ⟨25, _⟩ => ⟨S16x1x259x128, .f32⟩
  | .hbm, ⟨26, _⟩ => ⟨S16x1x256x128, .f32⟩
  | .hbm, ⟨27, _⟩ => ⟨S16x1x256x128, .f32⟩
  | .hbm, ⟨28, _⟩ => ⟨S16x1x256x128, .f32⟩
  | .hbm, ⟨29, _⟩ => ⟨S16x1x256x128, .f32⟩
  | .hbm, ⟨30, _⟩ => ⟨S16x1x256x128, .f32⟩
  | .hbm, ⟨31, _⟩ => ⟨S16x1x256x128, .f32⟩
  | .hbm, ⟨32, _⟩ => ⟨S16x1x256x128, .f32⟩
  | .hbm, ⟨33, _⟩ => ⟨S16x1x259x1, .f32⟩
  | .hbm, ⟨34, _⟩ => ⟨S16x1x259x128, .f32⟩
  | .hbm, ⟨35, _⟩ => ⟨S16x1x259x128, .f32⟩
  | .hbm, ⟨36, _⟩ => ⟨S16x1x256x128, .f32⟩
  | .hbm, ⟨37, _⟩ => ⟨S16x1x256x128, .f32⟩
  | .hbm, ⟨38, _⟩ => ⟨S16x1x256x128, .f32⟩
  | .hbm, ⟨39, _⟩ => ⟨S16x1x256x128, .f32⟩
  | .hbm, ⟨40, _⟩ => ⟨S16x1x256x128, .f32⟩
  | .hbm, ⟨41, _⟩ => ⟨S16x1x256x128, .f32⟩
  | .hbm, ⟨42, _⟩ => ⟨S16x1x256x128, .f32⟩
  | _, _ => ⟨S16x1x259x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]

class Facts₀ : Prop where
  transposes_S16x1x259x128_S16x259x1x128_0_2_1_3 : S16x1x259x128.Transposes [0, 2, 1, 3] S16x259x1x128
  bcast_S16x1x259x128_S16x259x259x128_0_1_2_3 : S16x1x259x128.BroadcastsInDim S16x259x259x128 (![0, 1, 2, 3] : Fin 4 → Fin S16x259x259x128.rank)
  bcast_S16x259x1x128_S16x259x259x128_0_1_2_3 : S16x259x1x128.BroadcastsInDim S16x259x259x128 (![0, 1, 2, 3] : Fin 4 → Fin S16x259x259x128.rank)
  reducesTo_S16x259x259x128_S16x259x259_d3 : S16x259x259x128.ReducesTo [3] S16x259x259
  h_S_ : 0 < S_.numel
  bcast_S_S16x259x259 : S_.BroadcastsInDim S16x259x259 (![] : Fin 0 → Fin S16x259x259.rank)
  reducesTo_S16x259x259_S16x259_d1 : S16x259x259.ReducesTo [1] S16x259
  reducesTo_S16x259x259_S16x259_d2 : S16x259x259.ReducesTo [2] S16x259
  bcast_S16x259_S16x1x259x1_0_2 : S16x259.BroadcastsInDim S16x1x259x1 (![0, 2] : Fin 2 → Fin S16x1x259x1.rank)
  bcast_S16x1x259x1_S16x1x259x128_0_1_2_3 : S16x1x259x1.BroadcastsInDim S16x1x259x128 (![0, 1, 2, 3] : Fin 4 → Fin S16x1x259x128.rank)
  slices_S16x1x259x128_S16x1x256x128_0_0_0_0 : S16x1x259x128.Slices ![0, 0, 0, 0] S16x1x256x128
  slices_S16x1x259x128_S16x1x256x128_0_0_1_0 : S16x1x259x128.Slices ![0, 0, 1, 0] S16x1x256x128
  slices_S16x1x259x128_S16x1x256x128_0_0_2_0 : S16x1x259x128.Slices ![0, 0, 2, 0] S16x1x256x128
  slices_S16x1x259x128_S16x1x256x128_0_0_3_0 : S16x1x259x128.Slices ![0, 0, 3, 0] S16x1x256x128

variable [Facts₀]

class Facts : Prop extends Facts₀ where

variable [Facts]
-- ==== Proof.PoolSpec.lean ====
/-
  Distance attention followed by a width-4 sliding-window pooling, as plain functions on the extended reals.

  For one batch, with row matrices `A B : Fin 259 → Fin 128 → EReal` (259 positions, 128 features):
  the score of rows `j` of `A` and `i` of `B` is `1 / (√(dist (A j) (B i) + ε) + 1)`; position `j` of `A` is weighted by the
  sum of its scores over all `i`, position `i` of `B` by the sum of its scores over all `j`; the output at `(l, h)` is the sum
  of the four weighted rows `l … l+3` at feature `h`, added left to right.
  The squared distance comes in two spellings: the sum of squared differences (`sqDist`), and the expanded form
  `max (‖a‖² + ‖b‖² − 2·⟨a, b⟩) 0` (`sqDistExpanded`). On real rows the two are equal (Proof/DistLaw.lean).
-/
import Idealize.ShloMosaic.PureOps.Ideal
import Idealize.ShloMosaic.Lib.ValueIdx

noncomputable section

open scoped BigOperators

namespace Cert.Pool

open Idealize.ShloMosaic Idealize.ShloMosaic.ValueIdx

/-- The float literals of both programs, as the extended reals their patterns denote: 1, 10⁻⁶ rounded to f32, and 2. -/
abbrev one : EReal := Ideal.ofBits .f32 0x3F800000#32
abbrev eps : EReal := Ideal.ofBits .f32 0x358637BD#32
abbrev two : EReal := Ideal.ofBits .f32 0x40000000#32

/-- A row of features, and a matrix of 259 such rows. -/
abbrev Row : Type := Fin 128 → EReal
abbrev Rows : Type := Fin 259 → Fin 128 → EReal

/-- The attention score of a squared distance `d`: `1 / (√(d + ε) + 1)`. -/
def score (d : EReal) : EReal := Ideal.div one (Ideal.sqrt (d + eps) + one)

/-- The squared euclidean distance of two rows as the sum of squared differences. -/
def sqDist (a b : Row) : EReal := ∑ d : Fin 128, (a d - b d) * (a d - b d)

/-- The same by the polarisation identity `‖a‖² + ‖b‖² − 2·⟨a, b⟩`, clamped at zero from below. -/
def sqDistExpanded (a b : Row) : EReal :=
  max (((∑ d : Fin 128, a d * a d) + (∑ d : Fin 128, b d * b d)) - two * ∑ d : Fin 128, a d * b d) 0

/-- The sum of a 259 × 259 table along its second index, and along its first. -/
def rowSum (s : Fin 259 → Fin 259 → EReal) (j : Fin 259) : EReal := ∑ i : Fin 259, s j i
def colSum (s : Fin 259 → Fin 259 → EReal) (i : Fin 259) : EReal := ∑ j : Fin 259, s j i

/-- Position `l + k` of the window of width 4 that starts at `l`. -/
def win (l : Fin 256) (k : Fin 4) : Fin 259 := ⟨l.val + k.val, by omega⟩

/-- The window sum at `(l, h)` of the rows `X` weighted position by position by `w`, added left to right. -/
def pool (X : Rows) (w : Fin 259 → EReal) (l : Fin 256) (h : Fin 128) : EReal :=
  ((X (win l 0) h * w (win l 0) + X (win l 1) h * w (win l 1)) + X (win l 2) h * w (win l 2)) + X (win l 3) h * w (win l 3)

/-- One batch's first output: `A` pooled with each position's scores summed over the positions of `B`. -/
def out1 (dist : Row → Row → EReal) (A B : Rows) (l : Fin 256) (h : Fin 128) : EReal :=
  pool A (rowSum fun j i => score (dist (A j) (B i))) l h

/-- One batch's second output: `B` pooled with each position's scores summed over the positions of `A`. -/
def out2 (dist : Row → Row → EReal) (A B : Rows) (l : Fin 256) (h : Fin 128) : EReal :=
  pool B (colSum fun j i => score (dist (A j) (B i))) l h

/-- Batch `b` of an `[n, 1, 259, 128]` array as a row matrix, and of an `[n, 259, 128]` array. -/
abbrev rows4 {n : Nat} (x : (⟨4, ![n, 1, 259, 128]⟩ : Shape).Idx → EReal) (b : Fin n) : Rows := fun j d => x (ix4 b 0 j d)
abbrev rows3 {n : Nat} (x : (⟨3, ![n, 259, 128]⟩ : Shape).Idx → EReal) (b : Fin n) : Rows := fun j d => x (ix3 b j d)

/-- The two results as whole `[16, 1, 256, 128]` arrays of the two `[16, 1, 259, 128]` argument arrays, for a given distance. -/
def res1 (dist : Row → Row → EReal) (x y : (⟨4, ![16, 1, 259, 128]⟩ : Shape).Idx → EReal) :
    (⟨4, ![16, 1, 256, 128]⟩ : Shape).Idx → EReal :=
  fun i => out1 dist (rows4 x (i 0)) (rows4 y (i 0)) (i 2) (i 3)
def res2 (dist : Row → Row → EReal) (x y : (⟨4, ![16, 1, 259, 128]⟩ : Shape).Idx → EReal) :
    (⟨4, ![16, 1, 256, 128]⟩ : Shape).Idx → EReal :=
  fun i => out2 dist (rows4 x (i 0)) (rows4 y (i 0)) (i 2) (i 3)

theorem res1_apply (dist : Row → Row → EReal) (x y : (⟨4, ![16, 1, 259, 128]⟩ : Shape).Idx → EReal)
    (b : Fin 16) (u : Fin 1) (l : Fin 256) (h : Fin 128) :
    res1 dist x y (ix4 b u l h) = out1 dist (rows4 x b) (rows4 y b) l h := rfl
theorem res2_apply (dist : Row → Row → EReal) (x y : (⟨4, ![16, 1, 259, 128]⟩ : Shape).Idx → EReal)
    (b : Fin 16) (u : Fin 1) (l : Fin 256) (h : Fin 128) :
    res2 dist x y (ix4 b u l h) = out2 dist (rows4 x b) (rows4 y b) l h := rfl

/-- The same over `[n, 259, 128]` arrays with no unit axis (a block of `n` batches, or all sixteen): `[n, 256, 128]` results. -/
def blk1 {n : Nat} (dist : Row → Row → EReal) (x y : (⟨3, ![n, 259, 128]⟩ : Shape).Idx → EReal) :
    (⟨3, ![n, 256, 128]⟩ : Shape).Idx → EReal :=
  fun i => out1 dist (rows3 x (i 0)) (rows3 y (i 0)) (i 1) (i 2)
def blk2 {n : Nat} (dist : Row → Row → EReal) (x y : (⟨3, ![n, 259, 128]⟩ : Shape).Idx → EReal) :
    (⟨3, ![n, 256, 128]⟩ : Shape).Idx → EReal :=
  fun i => out2 dist (rows3 x (i 0)) (rows3 y (i 0)) (i 1) (i 2)

theorem blk1_apply {n : Nat} (dist : Row → Row → EReal) (x y : (⟨3, ![n, 259, 128]⟩ : Shape).Idx → EReal)
    (b : Fin n) (l : Fin 256) (h : Fin 128) :
    blk1 dist x y (ix3 b l h) = out1 dist (rows3 x b) (rows3 y b) l h := rfl
theorem blk2_apply {n : Nat} (dist : Row → Row → EReal) (x y : (⟨3, ![n, 259, 128]⟩ : Shape).Idx → EReal)
    (b : Fin n) (l : Fin 256) (h : Fin 128) :
    blk2 dist x y (ix3 b l h) = out2 dist (rows3 x b) (rows3 y b) l h := rfl

end Cert.Pool

end
-- ==== Proof.LibStackLayout.lean ====
/-
  Stacks of matrices read at an index given by coordinates: the keepdims layouts of a reduction along the last or the
  middle axis of an `[m, a, b]` array, for any extents.

  • a trailing or a middle unit axis added by a shape cast: `[m, a] → [m, a, 1]` (`shapeCast_ma_ma1_apply`) and
    `[m, a] → [m, 1, a]` (`shapeCast_ma_m1a_apply`);
  • a column `[m, a, 1]` or a row `[m, 1, b]` of each matrix broadcast over the matrix `[m, a, b]`
    (`broadcastTo_ma1_mab_apply`, `broadcastTo_m1b_mab_apply`);
  • at the ideal values, the sum of an `[m, a, b]` array along its last axis (`sum_last_apply`) and along its middle
    axis (`sum_mid_apply`) as plain `Fin`-indexed sums; `sum_last_f32_apply` / `sum_mid_f32_apply` are these at f32 from the
    zero pattern, with the accumulator's side condition spelt as a printed program spells it.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.StackLayout

open Idealize.ShloMosaic Idealize.ShloMosaic.ValueIdx

variable {α : Type}

/-- An `[m, a]` array cast to `[m, a, 1]` reads, at `(k, i, u)`, the operand at `(k, i)`. -/
theorem shapeCast_ma_ma1_apply {m a : ℕ} (x : (⟨2, ![m, a]⟩ : Shape).Idx → α)
    (h : (⟨2, ![m, a]⟩ : Shape).ShapeCasts ⟨3, ![m, a, 1]⟩) (k : Fin m) (i : Fin a) (u : Fin 1) :
    shapeCast ⟨3, ![m, a, 1]⟩ x h (ix3 k i u) = x (ix2 k i) :=
  shapeCast_apply x h _ _ (by
    have hu : u.val = 0 := by omega
    rw [Shape.rowMajor_val_three, Shape.rowMajor_val_two]
    show k.val * a + i.val = (k.val * a + i.val) * 1 + u.val
    rw [hu, Nat.mul_one, Nat.add_zero])

/-- An `[m, a]` array cast to `[m, 1, a]` reads, at `(k, u, i)`, the operand at `(k, i)`. -/
theorem shapeCast_ma_m1a_apply {m a : ℕ} (x : (⟨2, ![m, a]⟩ : Shape).Idx → α)
    (h : (⟨2, ![m, a]⟩ : Shape).ShapeCasts ⟨3, ![m, 1, a]⟩) (k : Fin m) (u : Fin 1) (i : Fin a) :
    shapeCast ⟨3, ![m, 1, a]⟩ x h (ix3 k u i) = x (ix2 k i) :=
  shapeCast_apply x h _ _ (by
    have hu : u.val = 0 := by omega
    rw [Shape.rowMajor_val_three, Shape.rowMajor_val_two]
    show k.val * a + i.val = (k.val * 1 + u.val) * a + i.val
    rw [hu, Nat.mul_one, Nat.add_zero])

/-- A column of each matrix, `[m, a, 1]`, broadcast to `[m, a, b]` reads, at `(k, i, j)`, the column's entry `(k, i)`. -/
theorem broadcastTo_ma1_mab_apply {m a b : ℕ} (v : (⟨3, ![m, a, 1]⟩ : Shape).Idx → α)
    (h : (⟨3, ![m, a, 1]⟩ : Shape).Broadcasts ⟨3, ![m, a, b]⟩) (k : Fin m) (i : Fin a) (j : Fin b) :
    broadcastTo ⟨3, ![m, a, b]⟩ v h (ix3 k i j) = v (ix3 k i (0 : Fin 1)) := by
  refine broadcastTo_apply v h (ix3 k i j) (ix3 k i (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ => rfl

/-- A row of each matrix, `[m, 1, b]`, broadcast to `[m, a, b]` reads, at `(k, i, j)`, the row's entry `(k, j)`. -/
theorem broadcastTo_m1b_mab_apply {m a b : ℕ} (v : (⟨3, ![m, 1, b]⟩ : Shape).Idx → α)
    (h : (⟨3, ![m, 1, b]⟩ : Shape).Broadcasts ⟨3, ![m, a, b]⟩) (k : Fin m) (i : Fin a) (j : Fin b) :
    broadcastTo ⟨3, ![m, a, b]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if b = 1 then 0 else j.val
    split
    · have := j.isLt; omega
    · rfl

/-- At the ideal values the float sum of an `[m, a, b]` array along its LAST axis, from the neutral accumulator, is at
    `(k, i)` the plain sum over `j` of the entries `(k, i, j)`. -/
theorem sum_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (k : Fin m) (i : Fin a) :
    multiReduction .add [2] ⟨2, ![m, a]⟩ src acc h hφ hacc (ix2 k i) = ∑ j : Fin b, src (ix3 k i j) := by
  refine (Ideal.multiReduction_add_single src acc h hφ hacc (ix2 k i)).trans ?_
  show ∑ j : Fin b, src (h.lift (ix2 k i) j) = _
  refine Finset.sum_congr rfl fun j _ => congrArg src (funext fun ax => ?_)
  match ax with
  | ⟨0, _⟩ => exact Fin.ext rfl
  | ⟨1, _⟩ => exact Fin.ext rfl
  | ⟨2, _⟩ => exact Fin.ext rfl

/-- At the ideal values the float sum of an `[m, a, b]` array along its MIDDLE axis, from the neutral accumulator, is at
    `(k, j)` the plain sum over `i` of the entries `(k, i, j)`. -/
theorem sum_mid_apply {m a b : ℕ} {φ : FTy} (src : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (k : Fin m) (j : Fin b) :
    multiReduction .add [1] ⟨2, ![m, b]⟩ src acc h hφ hacc (ix2 k j) = ∑ i : Fin a, src (ix3 k i j) := by
  refine (Ideal.multiReduction_add_single src acc h hφ hacc (ix2 k j)).trans ?_
  show ∑ i : Fin a, src (h.lift (ix2 k j) i) = _
  refine Finset.sum_congr rfl fun i _ => congrArg src (funext fun ax => ?_)
  match ax with
  | ⟨0, _⟩ => exact Fin.ext rfl
  | ⟨1, _⟩ => exact Fin.ext rfl
  | ⟨2, _⟩ => exact Fin.ext rfl

/-- `sum_last_apply` at f32 from the zero pattern, its side condition spelt as an equation between patterns. -/
theorem sum_last_f32_apply {m a b : ℕ} (src : FVec Ideal ⟨3, ![m, a, b]⟩ .f32)
    (h : (⟨3, ![m, a, b]⟩ : Shape).Reduces [2] ⟨2, ![m, a]⟩) (hφ : FKind.Formats .f32)
    (hacc : (0x00000000#32 : BitVec 32) = 0x00000000#32) (k : Fin m) (i : Fin a) :
    multiReduction .add [2] ⟨2, ![m, a]⟩ src 0x00000000#32 h hφ hacc (ix2 k i) = ∑ j : Fin b, src (ix3 k i j) :=
  sum_last_apply src 0x00000000#32 h hφ hacc k i

/-- `sum_mid_apply` at f32 from the zero pattern, its side condition spelt as an equation between patterns. -/
theorem sum_mid_f32_apply {m a b : ℕ} (src : FVec Ideal ⟨3, ![m, a, b]⟩ .f32)
    (h : (⟨3, ![m, a, b]⟩ : Shape).Reduces [1] ⟨2, ![m, b]⟩) (hφ : FKind.Formats .f32)
    (hacc : (0x00000000#32 : BitVec 32) = 0x00000000#32) (k : Fin m) (j : Fin b) :
    multiReduction .add [1] ⟨2, ![m, b]⟩ src 0x00000000#32 h hφ hacc (ix2 k j) = ∑ i : Fin a, src (ix3 k i j) :=
  sum_mid_apply src 0x00000000#32 h hφ hacc k j

end Cert.StackLayout

end
-- ==== Proof.KernelBlock.lean ====
/-
  What one grid point of the kernel leaves in its two output blocks, entry by entry.

  A block holds four batches. For batch `p` the body forms the table of inner products of the rows of the two input
  blocks (one batched product contracting the feature axis of both), the rows' squared norms (sums along the feature
  axis; the second input's turned from a column into a row by a transpose), the clamped expanded squared distance, the
  score table, its sums along either axis (kept as columns; the sum along the first axis turned back into a column by a
  transpose), the two inputs' rows weighted by them, and four shifted slices of each added left to right. Read at an entry
  `(p, l, h)` that is the specification's window sum `Pool.out1` / `Pool.out2` of the rows of batch `p`, with the
  expanded spelling of the distance.
-/
import proofs.«135549_j11785390260225_2_alg».proof.Proof.Gen.KernelIdeal.Frame
import proofs.«135549_j11785390260225_2_alg».proof.Proof.PoolSpec
import proofs.«135549_j11785390260225_2_alg».proof.Proof.LibStackLayout

noncomputable section

open scoped BigOperators

namespace Cert.KernelIdeal.Block

open Idealize.ShloMosaic Idealize.ShloMosaic.ValueIdx Cert.KernelIdeal Cert.KernelIdeal.Gen Cert.Pool Cert.StackLayout

/-- The batched product of two stacks of row matrices, contracting the feature axis of both: at `(p, q, r)` the inner
    product of row `q` of the left matrix `p` and row `r` of the right matrix `p`. -/
theorem gram_apply (x y : FVec Ideal S4x259x128 .bf16) (p : Fin 4) (q r : Fin 259) :
    matmul dot_S4x259x128_S4x259x128_S4x259x259_2_2_1_1_0_0 none x y (constant (F := Ideal) S4x259x259 .f32 0x00000000#32) (ix3 p q r)
      = ∑ d : Fin 128, x (ix3 p q d) * y (ix3 p r d) := by
  refine (Ideal.matmul_constant_zero_apply dot_S4x259x128_S4x259x128_S4x259x259_2_2_1_1_0_0 none x y (ix3 p q r)).trans ?_
  rw [← Equiv.sum_comp (contrEquiv1 dot_S4x259x128_S4x259x128_S4x259x259_2_2_1_1_0_0 128 rfl rfl).symm]
  refine Finset.sum_congr rfl fun d _ => ?_
  have hl : dot_S4x259x128_S4x259x128_S4x259x259_2_2_1_1_0_0.lhsIdx (ix3 p q r) ((contrEquiv1 dot_S4x259x128_S4x259x128_S4x259x259_2_2_1_1_0_0 128 rfl rfl).symm d) = ix3 p q d := by
    funext a
    match a with
    | ⟨0, _⟩ => exact Fin.ext rfl
    | ⟨1, _⟩ => exact Fin.ext rfl
    | ⟨2, _⟩ =>
      refine Fin.ext ?_
      exact (DotDims.lhsIdx_val_of_single _ rfl _ _).trans (contrEquiv1_symm_val _ 128 rfl rfl d)
  have hr : dot_S4x259x128_S4x259x128_S4x259x259_2_2_1_1_0_0.rhsIdx (ix3 p q r) ((contrEquiv1 dot_S4x259x128_S4x259x128_S4x259x259_2_2_1_1_0_0 128 rfl rfl).symm d) = ix3 p r d := by
    funext a
    match a with
    | ⟨0, _⟩ => exact Fin.ext rfl
    | ⟨1, _⟩ => exact Fin.ext rfl
    | ⟨2, _⟩ =>
      refine Fin.ext ?_
      exact (DotDims.rhsIdx_val_of_single _ rfl _ _).trans (contrEquiv1_symm_val _ 128 rfl rfl d)
  rw [hl, hr]

theorem sqrt_apply {s : Shape} {φ : FTy} (a : FVec Ideal s φ) (i : s.Idx) : sqrt a i = Ideal.sqrt (a i) := rfl

theorem score_apply (v0 v2 : Vec Ideal S4x259x128 .f32) (p : Fin 4) (q r : Fin 259) :
    k0_pay5 (F := Ideal) v0 v2 (ix3 p q r) = score (sqDistExpanded (rows3 v0 p q) (rows3 v2 p r)) := by
  unfold k0_pay5 k0_pay3 k0_pay4
  dsimp only
  simp only [divf_apply, addf_apply, subf_apply, mulf_apply, maximumf_apply, broadcast_apply, sqrt_apply, shapeCast_self]
  rw [broadcastTo_ma1_mab_apply, broadcastTo_m1b_mab_apply, transpose_ix3_021_apply, shapeCast_ma_ma1_apply, shapeCast_ma_ma1_apply,
    sum_last_f32_apply, sum_last_f32_apply, gram_apply]
  show Ideal.div one (Ideal.sqrt (max _ (Ideal.ofBits .f32 0x00000000#32) + eps) + one) = _
  rw [Ideal.ofBits_zero_f32]
  rfl

/-- The first input's rows, each weighted by the sum of its scores against every row of the second input. -/
theorem weighted1_apply (v0 v2 : Vec Ideal S4x259x128 .f32) (p : Fin 4) (q : Fin 259) (h : Fin 128) :
    k0_pay6 (F := Ideal) v0 v2 (ix3 p q h)
      = rows3 v0 p q h * rowSum (fun j i => score (sqDistExpanded (rows3 v0 p j) (rows3 v2 p i))) q := by
  unfold k0_pay6 k0_pay3
  dsimp only
  simp only [mulf_apply, shapeCast_self]
  rw [broadcastTo_ma1_mab_apply, shapeCast_ma_ma1_apply, sum_last_f32_apply]
  unfold rowSum
  exact congrArg (v0 (ix3 p q h) * ·) (Finset.sum_congr rfl fun i _ => score_apply v0 v2 p q i)

/-- The second input's rows, each weighted by the sum of its scores against every row of the first input. -/
theorem weighted2_apply (v0 v2 : Vec Ideal S4x259x128 .f32) (p : Fin 4) (r : Fin 259) (h : Fin 128) :
    k0_pay7 (F := Ideal) v0 v2 (ix3 p r h)
      = rows3 v2 p r h * colSum (fun j i => score (sqDistExpanded (rows3 v0 p j) (rows3 v2 p i))) r := by
  unfold k0_pay7 k0_pay4
  dsimp only
  simp only [mulf_apply, shapeCast_self]
  rw [broadcastTo_ma1_mab_apply, transpose_ix3_021_apply, shapeCast_ma_m1a_apply, sum_mid_f32_apply]
  unfold colSum
  exact congrArg (v2 (ix3 p r h) * ·) (Finset.sum_congr rfl fun j _ => score_apply v0 v2 p j r)

/-- The four slices of the window sum: the slice from row `k` reads, at row `l`, row `l + k`. -/
theorem slice_win (X : FVec Ideal S4x259x128 .f32) (o : Nat) (k : Fin 4) (ho : o = k.val)
    (hs : S4x259x128.Slices ![0, o, 0] S4x256x128) (p : Fin 4) (l : Fin 256) (h : Fin 128) :
    extractStridedSlice S4x256x128 ![0, o, 0] X hs (ix3 p l h) = X (ix3 p (win l k) h) :=
  slice3_axis1_apply o X hs p l h (win l k) (by subst ho; show l.val + k.val = k.val + l.val; omega)

/-- The zero offsets of a whole-block access. -/
theorem off_zero : (![0, 0, 0] : Fin 3 → Nat) = fun _ => 0 := by
  funext a; match a with | ⟨0, _⟩ => rfl | ⟨1, _⟩ => rfl | ⟨2, _⟩ => rfl

/-- The first output block after the body is the first window sum of the two input blocks. -/
theorem out0_2_eq (x0 x1 : Vec Ideal S4x259x128 .f32) :
    Gen.out0_2 (F := Ideal) x0 x1 = Cert.Pool.blk1 Cert.Pool.sqDistExpanded x0 x1 := by
  unfold Gen.out0_2
  rw [View.canon_unit_zero off_zero]
  simp only [View.ld_unit_zero (S := S4x259x128) off_zero]
  funext i
  obtain ⟨p, l, h, rfl⟩ : ∃ (p : Fin 4) (l : Fin 256) (h : Fin 128), i = ix3 p l h := ⟨i 0, i 1, i 2, eq_ix3 i⟩
  rw [blk1_apply]
  unfold k0_pay1 k0_pay9
  dsimp only
  simp only [addf_apply]
  rw [slice_win _ 2 2 rfl, slice_win _ 3 3 rfl, slice_win _ 0 0 rfl, slice_win _ 1 1 rfl]
  simp only [weighted1_apply]
  rfl

/-- The second output block after the body is the second window sum of the two input blocks. -/
theorem out0_3_eq (x0 x1 : Vec Ideal S4x259x128 .f32) :
    Gen.out0_3 (F := Ideal) x0 x1 = Cert.Pool.blk2 Cert.Pool.sqDistExpanded x0 x1 := by
  unfold Gen.out0_3
  rw [View.canon_unit_zero off_zero]
  simp only [View.ld_unit_zero (S := S4x259x128) off_zero]
  funext i
  obtain ⟨p, l, h, rfl⟩ : ∃ (p : Fin 4) (l : Fin 256) (h : Fin 128), i = ix3 p l h := ⟨i 0, i 1, i 2, eq_ix3 i⟩
  rw [blk2_apply]
  unfold k0_pay2 k0_pay8 k0_pay10
  dsimp only
  simp only [addf_apply]
  rw [slice_win _ 0 0 rfl, slice_win _ 1 1 rfl, slice_win _ 2 2 rfl, slice_win _ 3 3 rfl]
  simp only [weighted2_apply]
  rfl

end Cert.KernelIdeal.Block

end
-- ==== Proof.KernelArrays.lean ====
/-
  From the kernel's blocks to its result arrays.

  The grid has four points; point `t` stages batches `4t … 4t+3` of the two `[16, 259, 128]` input arrays and writes back
  batches `4t … 4t+3` of the two `[16, 256, 128]` output arrays. What the body leaves in an output block is the pooling
  specification applied to the two input blocks (Proof/KernelBlock.lean), and the specification works batch by batch, so
  each output array after the run is the specification applied to the whole input arrays. The input arrays are the
  program's arguments with their unit axis dropped (a reshape before the region), and the program's results are the output
  arrays with a unit axis inserted (a broadcast after the region): the results are `Cert.Pool.res1` / `res2` of the arguments.
-/
import proofs.«135549_j11785390260225_2_alg».proof.Proof.Gen.KernelIdeal.Frame
import proofs.«135549_j11785390260225_2_alg».proof.Proof.KernelBlock
import proofs.«135549_j11785390260225_2_alg».proof.Proof.PoolSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Arrays

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ) (ρ : Dev nD → PrngReg)

/-! ## The index maps -/

/-- Every window's block index at point `t` is `(t, 0, 0)`: the block is batches `4t … 4t+3`, all positions, all features. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The input blocks -/

/-- Entry `(bb, j, d)` of the first input's block at point `t` is entry `(4t + bb, j, d)` of the first input array. -/
theorem iblk0_apply (c : Dev nD) (t : Fin cfg0.N) (x : S4x259x128.Idx) (k : S16x259x128.Idx)
    (hk0 : (k 0).val = 4 * t.val + (x 0).val) (hk1 : (k 1).val = (x 1).val) (hk2 : (k 2).val = (x 2).val) :
    (iblk m c 0 t : Vec Ideal S4x259x128 .f32) x = (V m c main_v0 : S16x259x128.Idx → EReal) k := by
  obtain ⟨e0, e1, e2, -⟩ := index_facts t
  unfold iblk
  rw [View.read_apply]
  show V m c main_v0 _ = V m c main_v0 _
  congr 1
  funext a
  apply Fin.ext
  match a with
  | ⟨0, _⟩ => show win0_0.index t (0 : Fin 3) * 4 + 1 * (x 0).val = (k 0).val; omega
  | ⟨1, _⟩ => show win0_0.index t (1 : Fin 3) * 259 + 1 * (x 1).val = (k 1).val; omega
  | ⟨2, _⟩ => show win0_0.index t (2 : Fin 3) * 128 + 1 * (x 2).val = (k 2).val; omega

/-- Entry `(bb, j, d)` of the second input's block at point `t` is entry `(4t + bb, j, d)` of the second input array. -/
theorem iblk1_apply (c : Dev nD) (t : Fin cfg0.N) (x : S4x259x128.Idx) (k : S16x259x128.Idx)
    (hk0 : (k 0).val = 4 * t.val + (x 0).val) (hk1 : (k 1).val = (x 1).val) (hk2 : (k 2).val = (x 2).val) :
    (iblk m c 1 t : Vec Ideal S4x259x128 .f32) x = (V m c main_v1 : S16x259x128.Idx → EReal) k := by
  obtain ⟨-, -, -, e0, e1, e2, -⟩ := index_facts t
  unfold iblk
  rw [View.read_apply]
  show V m c main_v1 _ = V m c main_v1 _
  congr 1
  funext a
  apply Fin.ext
  match a with
  | ⟨0, _⟩ => show win0_1.index t (0 : Fin 3) * 4 + 1 * (x 0).val = (k 0).val; omega
  | ⟨1, _⟩ => show win0_1.index t (1 : Fin 3) * 259 + 1 * (x 1).val = (k 1).val; omega
  | ⟨2, _⟩ => show win0_1.index t (2 : Fin 3) * 128 + 1 * (x 2).val = (k 2).val; omega

/-! ## The specification, block by block -/

/-- The pooling specification works batch by batch: if the blocks `x`, `y` hold batches `4q … 4q+3` of the arrays `X`, `Y`,
    entry `(bb, l, h)` of the first result of the blocks is entry `(4q + bb, l, h)` of the first result of the arrays. -/
theorem blk1_block (dist : Cert.Pool.Row → Cert.Pool.Row → EReal) (X Y : S16x259x128.Idx → EReal) (x y : S4x259x128.Idx → EReal) (q : Nat)
    (hx : ∀ (i : S4x259x128.Idx) (k : S16x259x128.Idx), (k 0).val = 4 * q + (i 0).val → (k 1).val = (i 1).val → (k 2).val = (i 2).val → x i = X k)
    (hy : ∀ (i : S4x259x128.Idx) (k : S16x259x128.Idx), (k 0).val = 4 * q + (i 0).val → (k 1).val = (i 1).val → (k 2).val = (i 2).val → y i = Y k)
    (i : S4x256x128.Idx) (k : S16x256x128.Idx)
    (hk0 : (k 0).val = 4 * q + (i 0).val) (hk1 : (k 1).val = (i 1).val) (hk2 : (k 2).val = (i 2).val) :
    Cert.Pool.blk1 dist x y i = Cert.Pool.blk1 dist X Y k := by
  have e1 : (i 1 : Fin 256) = (k 1 : Fin 256) := Fin.ext hk1.symm
  have e2 : (i 2 : Fin 128) = (k 2 : Fin 128) := Fin.ext hk2.symm
  have ex : Cert.Pool.rows3 x (i 0) = Cert.Pool.rows3 X (k 0) :=
    funext fun j => funext fun d => hx (ix3 (i 0) j d) (ix3 (k 0) j d) hk0 rfl rfl
  have ey : Cert.Pool.rows3 y (i 0) = Cert.Pool.rows3 Y (k 0) :=
    funext fun j => funext fun d => hy (ix3 (i 0) j d) (ix3 (k 0) j d) hk0 rfl rfl
  show Cert.Pool.out1 dist (Cert.Pool.rows3 x (i 0)) (Cert.Pool.rows3 y (i 0)) (i 1) (i 2)
    = Cert.Pool.out1 dist (Cert.Pool.rows3 X (k 0)) (Cert.Pool.rows3 Y (k 0)) (k 1) (k 2)
  rw [ex, ey, e1, e2]

/-- The same for the second result. -/
theorem blk2_block (dist : Cert.Pool.Row → Cert.Pool.Row → EReal) (X Y : S16x259x128.Idx → EReal) (x y : S4x259x128.Idx → EReal) (q : Nat)
    (hx : ∀ (i : S4x259x128.Idx) (k : S16x259x128.Idx), (k 0).val = 4 * q + (i 0).val → (k 1).val = (i 1).val → (k 2).val = (i 2).val → x i = X k)
    (hy : ∀ (i : S4x259x128.Idx) (k : S16x259x128.Idx), (k 0).val = 4 * q + (i 0).val → (k 1).val = (i 1).val → (k 2).val = (i 2).val → y i = Y k)
    (i : S4x256x128.Idx) (k : S16x256x128.Idx)
    (hk0 : (k 0).val = 4 * q + (i 0).val) (hk1 : (k 1).val = (i 1).val) (hk2 : (k 2).val = (i 2).val) :
    Cert.Pool.blk2 dist x y i = Cert.Pool.blk2 dist X Y k := by
  have e1 : (i 1 : Fin 256) = (k 1 : Fin 256) := Fin.ext hk1.symm
  have e2 : (i 2 : Fin 128) = (k 2 : Fin 128) := Fin.ext hk2.symm
  have ex : Cert.Pool.rows3 x (i 0) = Cert.Pool.rows3 X (k 0) :=
    funext fun j => funext fun d => hx (ix3 (i 0) j d) (ix3 (k 0) j d) hk0 rfl rfl
  have ey : Cert.Pool.rows3 y (i 0) = Cert.Pool.rows3 Y (k 0) :=
    funext fun j => funext fun d => hy (ix3 (i 0) j d) (ix3 (k 0) j d) hk0 rfl rfl
  show Cert.Pool.out2 dist (Cert.Pool.rows3 x (i 0)) (Cert.Pool.rows3 y (i 0)) (i 1) (i 2)
    = Cert.Pool.out2 dist (Cert.Pool.rows3 X (k 0)) (Cert.Pool.rows3 Y (k 0)) (k 1) (k 2)
  rw [ex, ey, e1, e2]

/-! ## What a point writes back -/

/-- Point `t` writes back, to the first output array, block `t` of the first result of the whole input arrays. -/
theorem flushed2_eq (c : Dev nD) (t : Fin cfg0.N) :
    (dats m 0 c).flushed 2 t = ((cfg0.win 2).blk t).view.read (Elt Ideal)
      (Cert.Pool.blk1 Cert.Pool.sqDistExpanded (V m c main_v0 : S16x259x128.Idx → EReal) (V m c main_v1 : S16x259x128.Idx → EReal)) := by
  show (cfg0.win 2).cut (grid0.coords t) ((dats m 0 c).after 2 t) = _
  rw [after0_2]
  refine (congrArg ((cfg0.win 2).cut (grid0.coords t)) (Block.out0_2_eq (iblk m c 0 t) (iblk m c 1 t))).trans ?_
  obtain ⟨-, -, -, -, -, -, e0, e1, e2, -⟩ := index_facts t
  funext y
  show Cert.Pool.blk1 Cert.Pool.sqDistExpanded (iblk m c 0 t : Vec Ideal S4x259x128 .f32) (iblk m c 1 t : Vec Ideal S4x259x128 .f32) y
    = Cert.Pool.blk1 Cert.Pool.sqDistExpanded (V m c main_v0 : S16x259x128.Idx → EReal) (V m c main_v1 : S16x259x128.Idx → EReal) (((cfg0.win 2).blk t).view.emb y)
  refine blk1_block _ _ _ _ _ t.val (fun i k => iblk0_apply m c t i k) (fun i k => iblk1_apply m c t i k) y _ ?_ ?_ ?_
  · show win0_2.index t (0 : Fin 3) * 4 + 1 * (y 0).val = 4 * t.val + (y 0).val; omega
  · show win0_2.index t (1 : Fin 3) * 256 + 1 * (y 1).val = (y 1).val; omega
  · show win0_2.index t (2 : Fin 3) * 128 + 1 * (y 2).val = (y 2).val; omega

/-- Point `t` writes back, to the second output array, block `t` of the second result of the whole input arrays. -/
theorem flushed3_eq (c : Dev nD) (t : Fin cfg0.N) :
    (dats m 0 c).flushed 3 t = ((cfg0.win 3).blk t).view.read (Elt Ideal)
      (Cert.Pool.blk2 Cert.Pool.sqDistExpanded (V m c main_v0 : S16x259x128.Idx → EReal) (V m c main_v1 : S16x259x128.Idx → EReal)) := by
  show (cfg0.win 3).cut (grid0.coords t) ((dats m 0 c).after 3 t) = _
  rw [after0_3]
  refine (congrArg ((cfg0.win 3).cut (grid0.coords t)) (Block.out0_3_eq (iblk m c 0 t) (iblk m c 1 t))).trans ?_
  obtain ⟨-, -, -, -, -, -, -, -, -, e0, e1, e2⟩ := index_facts t
  funext y
  show Cert.Pool.blk2 Cert.Pool.sqDistExpanded (iblk m c 0 t : Vec Ideal S4x259x128 .f32) (iblk m c 1 t : Vec Ideal S4x259x128 .f32) y
    = Cert.Pool.blk2 Cert.Pool.sqDistExpanded (V m c main_v0 : S16x259x128.Idx → EReal) (V m c main_v1 : S16x259x128.Idx → EReal) (((cfg0.win 3).blk t).view.emb y)
  refine blk2_block _ _ _ _ _ t.val (fun i k => iblk0_apply m c t i k) (fun i k => iblk1_apply m c t i k) y _ ?_ ?_ ?_
  · show win0_3.index t (0 : Fin 3) * 4 + 1 * (y 0).val = 4 * t.val + (y 0).val; omega
  · show win0_3.index t (1 : Fin 3) * 256 + 1 * (y 1).val = (y 1).val; omega
  · show win0_3.index t (2 : Fin 3) * 128 + 1 * (y 2).val = (y 2).val; omega

/-! ## The output blocks tile the output arrays -/

/-- An index of the first output array is in point `t`'s block iff each coordinate is in the block's range on its axis. -/
theorem mem_blk2 (t : Fin cfg0.N) (i : S16x256x128.Idx) :
    i ∈ ((cfg0.win 2).blk t).view.set ↔ ∀ a : Fin 3, win0_2.index t a * S4x256x128.size a ≤ (i a).val ∧ (i a).val < win0_2.index t a * S4x256x128.size a + S4x256x128.size a := by
  show i ∈ ((View.whole main_v2_0).slice (win0_2.rect t)).set ↔ _
  rw [View.set_slice_whole, Rect.mem_set_unit]
  exact Iff.rfl

/-- The same for the second output array. -/
theorem mem_blk3 (t : Fin cfg0.N) (i : S16x256x128.Idx) :
    i ∈ ((cfg0.win 3).blk t).view.set ↔ ∀ a : Fin 3, win0_3.index t a * S4x256x128.size a ≤ (i a).val ∧ (i a).val < win0_3.index t a * S4x256x128.size a + S4x256x128.size a := by
  show i ∈ ((View.whole main_v2_1).slice (win0_3.rect t)).set ↔ _
  rw [View.set_slice_whole, Rect.mem_set_unit]
  exact Iff.rfl

/-- Batch `b` of the first output array lies in the block of point `b / 4`, which writes back. -/
theorem cover2 (i : S16x256x128.Idx) : ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 128 := (i 2).isLt
  obtain ⟨t, ht⟩ : ∃ t : Fin cfg0.N, t.val = (i 0).val / 4 := ⟨⟨(i 0).val / 4, by rw [show cfg0.N = 4 from N_0]; omega⟩, rfl⟩
  obtain ⟨-, -, -, -, -, -, e0, e1, e2, -⟩ := index_facts t
  refine ⟨t, flush0_2 t, ?_⟩
  rw [mem_blk2]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 128 ≤ (i 2).val ∧ (i 2).val < win0_2.index t (2 : Fin 3) * 128 + 128; omega

/-- The same for the second output array. -/
theorem cover3 (i : S16x256x128.Idx) : ∃ t : Fin cfg0.N, (cfg0.win 3).flush t = true ∧ i ∈ ((cfg0.win 3).blk t).view.set := by
  have hi0 : (i 0).val < 16 := (i 0).isLt
  have hi1 : (i 1).val < 256 := (i 1).isLt
  have hi2 : (i 2).val < 128 := (i 2).isLt
  obtain ⟨t, ht⟩ : ∃ t : Fin cfg0.N, t.val = (i 0).val / 4 := ⟨⟨(i 0).val / 4, by rw [show cfg0.N = 4 from N_0]; omega⟩, rfl⟩
  obtain ⟨-, -, -, -, -, -, -, -, -, e0, e1, e2⟩ := index_facts t
  refine ⟨t, flush0_3 t, ?_⟩
  rw [mem_blk3]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 256 ≤ (i 1).val ∧ (i 1).val < win0_3.index t (1 : Fin 3) * 256 + 256; omega
  | ⟨2, _⟩ => show win0_3.index t (2 : Fin 3) * 128 ≤ (i 2).val ∧ (i 2).val < win0_3.index t (2 : Fin 3) * 128 + 128; omega

/-! ## The output arrays after the run -/

/-- The first output array after the run: the first result of the whole input arrays as the region finds them. -/
theorem final2 (c : Dev nD) : (dats m 0 c).arrAt 2 cfg0.N
    = Cert.Pool.blk1 Cert.Pool.sqDistExpanded (V m c main_v0 : S16x259x128.Idx → EReal) (V m c main_v1 : S16x259x128.Idx → EReal) :=
  (dats m 0 c).arrAt_eq_of_cover 2 _ (fun t _ => flushed2_eq m c t) cover2

/-- The second output array after the run: the second result of the whole input arrays as the region finds them. -/
theorem final3 (c : Dev nD) : (dats m 0 c).arrAt 3 cfg0.N
    = Cert.Pool.blk2 Cert.Pool.sqDistExpanded (V m c main_v0 : S16x259x128.Idx → EReal) (V m c main_v1 : S16x259x128.Idx → EReal) :=
  (dats m 0 c).arrAt_eq_of_cover 3 _ (fun t _ => flushed3_eq m c t) cover3

/-! ## The input arrays are the arguments with the unit axis dropped -/

/-- An `[n, 1, a, b]` array cast to `[n, a, b]` reads, at `(k, i, j)`, the operand at `(k, 0, i, j)`. -/
theorem shapeCast_n1ab_nab_apply {α : Type} {n a b : ℕ} (x : (⟨4, ![n, 1, a, b]⟩ : Shape).Idx → α)
    (h : (⟨4, ![n, 1, a, b]⟩ : Shape).ShapeCasts ⟨3, ![n, a, b]⟩) (k : Fin n) (i : Fin a) (j : Fin b) :
    shapeCast ⟨3, ![n, a, b]⟩ x h (ix3 k i j) = x (ix4 k (0 : Fin 1) i j) :=
  shapeCast_apply x h _ _ (by
    rw [Shape.rowMajor_val_four, Shape.rowMajor_val_three]
    show ((k.val * 1 + 0) * a + i.val) * b + j.val = (k.val * a + i.val) * b + j.val
    rw [Nat.mul_one, Nat.add_zero])

/-- The first input array as the region finds it: the first argument reshaped. -/
theorem V_main_v0 (c : Dev nD) : (V m c main_v0 : S16x259x128.Idx → EReal)
    = shapeCast S16x259x128 (m ((c : Thread nD τ).loc main_arg0) : S16x1x259x128.Idx → EReal) shapeCasts_S16x1x259x128_S16x259x128 := by
  show StableHlo.after hostOps0 (fun b => m (c, b)) (Proc.devRef .tc main_v0) = _
  after_results
  rfl

/-- The second input array as the region finds it: the second argument reshaped. -/
theorem V_main_v1 (c : Dev nD) : (V m c main_v1 : S16x259x128.Idx → EReal)
    = shapeCast S16x259x128 (m ((c : Thread nD τ).loc main_arg1) : S16x1x259x128.Idx → EReal) shapeCasts_S16x1x259x128_S16x259x128 := by
  show StableHlo.after hostOps0 (fun b => m (c, b)) (Proc.devRef .tc main_v1) = _
  after_results
  rfl

/-- Batch `b` of the first input array is batch `b` of the first argument. -/
theorem rows_v0 (c : Dev nD) (b : Fin 16) :
    Cert.Pool.rows3 (V m c main_v0 : S16x259x128.Idx → EReal) b = Cert.Pool.rows4 (m ((c : Thread nD τ).loc main_arg0) : S16x1x259x128.Idx → EReal) b := by
  funext j d
  show (V m c main_v0 : S16x259x128.Idx → EReal) (ix3 b j d) = _
  rw [V_main_v0]
  exact shapeCast_n1ab_nab_apply _ _ b j d

/-- Batch `b` of the second input array is batch `b` of the second argument. -/
theorem rows_v1 (c : Dev nD) (b : Fin 16) :
    Cert.Pool.rows3 (V m c main_v1 : S16x259x128.Idx → EReal) b = Cert.Pool.rows4 (m ((c : Thread nD τ).loc main_arg1) : S16x1x259x128.Idx → EReal) b := by
  funext j d
  show (V m c main_v1 : S16x259x128.Idx → EReal) (ix3 b j d) = _
  rw [V_main_v1]
  exact shapeCast_n1ab_nab_apply _ _ b j d

/-! ## The results are the output arrays with a unit axis inserted -/

/-- A `[16, 256, 128]` array broadcast to `[16, 1, 256, 128]` along the axes `(0, 2, 3)` reads, at `(b, u, l, h)`, the operand at `(b, l, h)`. -/
theorem broadcast_unit_apply {α : Type} (x : S16x256x128.Idx → α) (b : Fin 16) (u : Fin 1) (l : Fin 256) (h : Fin 128) :
    broadcastInDim S16x1x256x128 ![0, 2, 3] bcast_S16x256x128_S16x1x256x128_0_2_3 x (ix4 b u l h) = x (ix3 b l h) :=
  broadcastInDim_apply _ _ x _ _ (fun a => by
    match a with
    | ⟨0, _⟩ => rfl
    | ⟨1, _⟩ => rfl
    | ⟨2, _⟩ => rfl)

/-- The first result after the host operations that follow the region: the first output array with a unit axis inserted. -/
theorem tail_v3 (c : Dev nD) :
    (Pipeline.afterTail₀ cfgs (dats m) 0 (V0 m) [hostOps1] c main_v3 : S16x1x256x128.Idx → EReal)
      = broadcastInDim S16x1x256x128 ![0, 2, 3] bcast_S16x256x128_S16x1x256x128_0_2_3
          (Cert.Pool.blk1 Cert.Pool.sqDistExpanded (V m c main_v0 : S16x259x128.Idx → EReal) (V m c main_v1 : S16x259x128.Idx → EReal)) := by
  unfold Pipeline.afterTail₀
  show StableHlo.after hostOps1 _ (Proc.devRef .tc main_v3) = _
  after_results
  exact congrArg _ ((Pipeline.withArrays_arr spec0 launch0.win.arr_inj c _ _ 2).trans (final2 m c))

/-- The second result after the host operations that follow the region: the second output array with a unit axis inserted. -/
theorem tail_v4 (c : Dev nD) :
    (Pipeline.afterTail₀ cfgs (dats m) 0 (V0 m) [hostOps1] c main_v4 : S16x1x256x128.Idx → EReal)
      = broadcastInDim S16x1x256x128 ![0, 2, 3] bcast_S16x256x128_S16x1x256x128_0_2_3
          (Cert.Pool.blk2 Cert.Pool.sqDistExpanded (V m c main_v0 : S16x259x128.Idx → EReal) (V m c main_v1 : S16x259x128.Idx → EReal)) := by
  unfold Pipeline.afterTail₀
  show StableHlo.after hostOps1 _ (Proc.devRef .tc main_v4) = _
  after_results
  exact congrArg _ ((Pipeline.withArrays_arr spec0 launch0.win.arr_inj c _ _ 3).trans (final3 m c))

/-- The first result is `Cert.Pool.res1` of the two arguments. -/
theorem result_v3 (c : Dev nD) :
    (Pipeline.afterTail₀ cfgs (dats m) 0 (V0 m) [hostOps1] c main_v3 : S16x1x256x128.Idx → EReal)
      = Cert.Pool.res1 Cert.Pool.sqDistExpanded (m ((c : Thread nD τ).loc main_arg0)) (m ((c : Thread nD τ).loc main_arg1)) := by
  rw [tail_v3]
  funext i
  obtain ⟨b, u, l, h, rfl⟩ : ∃ (b : Fin 16) (u : Fin 1) (l : Fin 256) (h : Fin 128), i = ix4 b u l h :=
    ⟨i 0, i 1, i 2, i 3, eq_ix4 i⟩
  rw [broadcast_unit_apply, Cert.Pool.res1_apply, Cert.Pool.blk1_apply, rows_v0, rows_v1]

/-- The second result is `Cert.Pool.res2` of the two arguments. -/
theorem result_v4 (c : Dev nD) :
    (Pipeline.afterTail₀ cfgs (dats m) 0 (V0 m) [hostOps1] c main_v4 : S16x1x256x128.Idx → EReal)
      = Cert.Pool.res2 Cert.Pool.sqDistExpanded (m ((c : Thread nD τ).loc main_arg0)) (m ((c : Thread nD τ).loc main_arg1)) := by
  rw [tail_v4]
  funext i
  obtain ⟨b, u, l, h, rfl⟩ : ∃ (b : Fin 16) (u : Fin 1) (l : Fin 256) (h : Fin 128), i = ix4 b u l h :=
    ⟨i 0, i 1, i 2, i 3, eq_ix4 i⟩
  rw [broadcast_unit_apply, Cert.Pool.res2_apply, Cert.Pool.blk2_apply, rows_v0, rows_v1]

/-! ## The run -/

/-- At the compiled mesh, from any memory with zero counters: every weakly fair execution of the idealized kernel program
    terminates, and in every final state the two results are the pooling specification (with the expanded squared distance)
    of the two arguments, which are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = Cert.Pool.res1 Cert.Pool.sqDistExpanded (m ((c.tc : Thread nD τ).loc main_arg0)) (m ((c.tc : Thread nD τ).loc main_arg1))
      ∧ r.2.mem ((c.tc : Thread nD τ).loc main_v4) = Cert.Pool.res2 Cert.Pool.sqDistExpanded (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v3 (Pipeline.mem_restRefs_of main_v3 (by decide) (by decide))).trans (result_v3 m c),
     ((h c).2 main_v4 (Pipeline.mem_restRefs_of main_v4 (by decide) (by decide))).trans (result_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Arrays

end
-- ==== Proof.RefValue.lean ====
/-
  The reference program computes the specification with the squared distance as the sum of squared differences.

  Stage by stage, at explicit coordinates (batch `b`, position `i` of `y`, position `j` of `x`, feature `d`):
  the difference array holds `x[b, j, d] − y[b, i, d]` at `(b, i, j, d)` (axis 1 is the position of `y`, axis 2 the
  position of `x`); squaring and summing over `d` gives the squared distance of row `j` of `x` and row `i` of `y`;
  adding ε, the square root, adding 1 and the reciprocal give the score; the sum over axis 1 is the weight of position
  `j` of `x` (a row sum of the table of scores), the sum over axis 2 the weight of position `i` of `y` (a column sum);
  each array is multiplied row by row with its weights, and the four slices at offsets 0, 1, 2, 3 added left to right
  are the window sum of width 4. The zero initial value of each float sum is the zero of the extended reals; the
  literals 1 and ε are the same words on both sides and are never evaluated.
-/
import proofs.«135549_j11785390260225_2_alg».proof.Proof.Gen.ReferenceIdeal.Read
import proofs.«135549_j11785390260225_2_alg».proof.Proof.PoolSpec

noncomputable section

open scoped BigOperators

namespace Cert.ReferenceIdeal.RefValue

open Idealize.ShloMosaic Idealize.ShloMosaic.ValueIdx Cert.ReferenceIdeal Cert.ReferenceIdeal.Read

/-- The difference stage at batch `b`, position `i` of `y`, position `j` of `x`, feature `d`. -/
theorem v3_at (x y : FVec Ideal S16x1x259x128 .f32) (b : Fin 16) (i j : Fin 259) (d : Fin 128) :
    val_main_v3 (F := Ideal) x y (ix4 b i j d) = x (ix4 b 0 j d) - y (ix4 b 0 i d) := by
  have e1 : idx_main_v1 (ix4 b i j d) = ix4 b 0 j d :=
    funext fun a => match a with | ⟨0, _⟩ => rfl | ⟨1, _⟩ => rfl | ⟨2, _⟩ => rfl | ⟨3, _⟩ => rfl
  have e2 : idx_main_v0 (idx_main_v2 (ix4 b i j d)) = ix4 b 0 i d :=
    funext fun a => match a with | ⟨0, _⟩ => rfl | ⟨1, _⟩ => rfl | ⟨2, _⟩ => rfl | ⟨3, _⟩ => rfl
  rw [val_main_v3_apply, val_main_v1_apply, val_main_v2_apply, val_main_v0_apply, e1, e2]
  rfl

/-- The squared-distance stage is the sum of squared differences of row `j` of `x` and row `i` of `y`. -/
theorem v5_at (x y : FVec Ideal S16x1x259x128 .f32) (b : Fin 16) (i j : Fin 259) :
    val_main_v5 (F := Ideal) x y (ix3 b i j) = Cert.Pool.sqDist (Cert.Pool.rows4 x b j) (Cert.Pool.rows4 y b i) := by
  have e : ∀ k : Fin 128, idx_main_v5 (ix3 b i j) k = ix4 b i j k := fun k =>
    funext fun a => match a with | ⟨0, _⟩ => rfl | ⟨1, _⟩ => rfl | ⟨2, _⟩ => rfl | ⟨3, _⟩ => rfl
  rw [val_main_v5_apply, val_main_cst_apply, Ideal.ofBits_def, Ideal.ofBits_zero_f32, zero_add]
  unfold Cert.Pool.sqDist
  refine Finset.sum_congr rfl fun k _ => ?_
  rw [e k, val_main_v4_apply, v3_at]
  rfl

/-- The score stage at `(b, i, j)` is the score of the squared distance of row `j` of `x` and row `i` of `y`. -/
theorem v12_at (x y : FVec Ideal S16x1x259x128 .f32) (b : Fin 16) (i j : Fin 259) :
    val_main_v12 (F := Ideal) x y (ix3 b i j)
      = Cert.Pool.score (Cert.Pool.sqDist (Cert.Pool.rows4 x b j) (Cert.Pool.rows4 y b i)) := by
  rw [val_main_v12_apply, val_main_v11_apply, val_main_cst_2_apply, val_main_v10_apply, val_main_v9_apply,
    val_main_cst_1_apply, val_main_v8_apply, val_main_v7_apply, val_main_v6_apply, val_main_cst_0_apply, v5_at]
  rfl

/-- The table of scores of one batch: entry `(j, i)` pairs row `j` of `x` with row `i` of `y`. -/
abbrev scores (x y : FVec Ideal S16x1x259x128 .f32) (b : Fin 16) : Fin 259 → Fin 259 → EReal :=
  fun j i => Cert.Pool.score (Cert.Pool.sqDist (Cert.Pool.rows4 x b j) (Cert.Pool.rows4 y b i))

/-- Summing the scores over the positions of `y` (the array's axis 1) gives the weight of position `j` of `x`. -/
theorem v13_at (x y : FVec Ideal S16x1x259x128 .f32) (b : Fin 16) (j : Fin 259) :
    val_main_v13 (F := Ideal) x y (ix2 b j) = Cert.Pool.rowSum (scores x y b) j := by
  have e : ∀ k : Fin 259, idx_main_v13 (ix2 b j) k = ix3 b k j := fun k =>
    funext fun a => match a with | ⟨0, _⟩ => rfl | ⟨1, _⟩ => rfl | ⟨2, _⟩ => rfl
  rw [val_main_v13_apply, val_main_cst_3_apply, Ideal.ofBits_def, Ideal.ofBits_zero_f32, zero_add]
  unfold Cert.Pool.rowSum
  refine Finset.sum_congr rfl fun k _ => ?_
  rw [e k, v12_at]

/-- Summing the scores over the positions of `x` (the array's axis 2) gives the weight of position `i` of `y`. -/
theorem v14_at (x y : FVec Ideal S16x1x259x128 .f32) (b : Fin 16) (i : Fin 259) :
    val_main_v14 (F := Ideal) x y (ix2 b i) = Cert.Pool.colSum (scores x y b) i := by
  have e : ∀ k : Fin 259, idx_main_v14 (ix2 b i) k = ix3 b i k := fun k =>
    funext fun a => match a with | ⟨0, _⟩ => rfl | ⟨1, _⟩ => rfl | ⟨2, _⟩ => rfl
  rw [val_main_v14_apply, val_main_cst_4_apply, Ideal.ofBits_def, Ideal.ofBits_zero_f32, zero_add]
  unfold Cert.Pool.colSum
  refine Finset.sum_congr rfl fun k _ => ?_
  rw [e k, v12_at]

/-- Row `n` of `x` weighted by the sum of its scores. -/
theorem v17_at (x y : FVec Ideal S16x1x259x128 .f32) (b : Fin 16) (n : Fin 259) (h : Fin 128) :
    val_main_v17 (F := Ideal) x y (ix4 b 0 n h)
      = Cert.Pool.rows4 x b n h * Cert.Pool.rowSum (scores x y b) n := by
  have e : idx_main_v15 (idx_main_v16 (ix4 b (0 : Fin 1) n h)) = ix2 b n :=
    funext fun a => match a with | ⟨0, _⟩ => rfl | ⟨1, _⟩ => rfl
  rw [val_main_v17_apply, val_main_v16_apply, val_main_v15_apply, e, v13_at]
  rfl

/-- Row `n` of `y` weighted by the sum of its scores. -/
theorem v27_at (x y : FVec Ideal S16x1x259x128 .f32) (b : Fin 16) (n : Fin 259) (h : Fin 128) :
    val_main_v27 (F := Ideal) x y (ix4 b 0 n h)
      = Cert.Pool.rows4 y b n h * Cert.Pool.colSum (scores x y b) n := by
  have e : idx_main_v25 (idx_main_v26 (ix4 b (0 : Fin 1) n h)) = ix2 b n :=
    funext fun a => match a with | ⟨0, _⟩ => rfl | ⟨1, _⟩ => rfl
  rw [val_main_v27_apply, val_main_v26_apply, val_main_v25_apply, e, v14_at]
  rfl

/-- The four slices read the array at rows `l`, `l + 1`, `l + 2`, `l + 3`: the positions of the window that starts at `l`. -/
theorem slice0 (b : Fin 16) (l : Fin 256) (h : Fin 128) :
    idx_main_v18 (ix4 b (0 : Fin 1) l h) = ix4 b 0 (Cert.Pool.win l 0) h :=
  funext fun a => match a with
    | ⟨0, _⟩ => rfl | ⟨1, _⟩ => rfl | ⟨2, _⟩ => Fin.ext (by show l.val = l.val + 0; omega) | ⟨3, _⟩ => rfl
theorem slice1 (b : Fin 16) (l : Fin 256) (h : Fin 128) :
    idx_main_v19 (ix4 b (0 : Fin 1) l h) = ix4 b 0 (Cert.Pool.win l 1) h :=
  funext fun a => match a with
    | ⟨0, _⟩ => rfl | ⟨1, _⟩ => rfl | ⟨2, _⟩ => Fin.ext (by show 1 + l.val = l.val + 1; omega) | ⟨3, _⟩ => rfl
theorem slice2 (b : Fin 16) (l : Fin 256) (h : Fin 128) :
    idx_main_v21 (ix4 b (0 : Fin 1) l h) = ix4 b 0 (Cert.Pool.win l 2) h :=
  funext fun a => match a with
    | ⟨0, _⟩ => rfl | ⟨1, _⟩ => rfl | ⟨2, _⟩ => Fin.ext (by show 2 + l.val = l.val + 2; omega) | ⟨3, _⟩ => rfl
theorem slice3 (b : Fin 16) (l : Fin 256) (h : Fin 128) :
    idx_main_v23 (ix4 b (0 : Fin 1) l h) = ix4 b 0 (Cert.Pool.win l 3) h :=
  funext fun a => match a with
    | ⟨0, _⟩ => rfl | ⟨1, _⟩ => rfl | ⟨2, _⟩ => Fin.ext (by show 3 + l.val = l.val + 3; omega) | ⟨3, _⟩ => rfl

/-- The same four rows for the slices of the second weighted array. -/
theorem slice0' (b : Fin 16) (l : Fin 256) (h : Fin 128) :
    idx_main_v28 (ix4 b (0 : Fin 1) l h) = ix4 b 0 (Cert.Pool.win l 0) h :=
  funext fun a => match a with
    | ⟨0, _⟩ => rfl | ⟨1, _⟩ => rfl | ⟨2, _⟩ => Fin.ext (by show l.val = l.val + 0; omega) | ⟨3, _⟩ => rfl
theorem slice1' (b : Fin 16) (l : Fin 256) (h : Fin 128) :
    idx_main_v29 (ix4 b (0 : Fin 1) l h) = ix4 b 0 (Cert.Pool.win l 1) h :=
  funext fun a => match a with
    | ⟨0, _⟩ => rfl | ⟨1, _⟩ => rfl | ⟨2, _⟩ => Fin.ext (by show 1 + l.val = l.val + 1; omega) | ⟨3, _⟩ => rfl
theorem slice2' (b : Fin 16) (l : Fin 256) (h : Fin 128) :
    idx_main_v31 (ix4 b (0 : Fin 1) l h) = ix4 b 0 (Cert.Pool.win l 2) h :=
  funext fun a => match a with
    | ⟨0, _⟩ => rfl | ⟨1, _⟩ => rfl | ⟨2, _⟩ => Fin.ext (by show 2 + l.val = l.val + 2; omega) | ⟨3, _⟩ => rfl
theorem slice3' (b : Fin 16) (l : Fin 256) (h : Fin 128) :
    idx_main_v33 (ix4 b (0 : Fin 1) l h) = ix4 b 0 (Cert.Pool.win l 3) h :=
  funext fun a => match a with
    | ⟨0, _⟩ => rfl | ⟨1, _⟩ => rfl | ⟨2, _⟩ => Fin.ext (by show 3 + l.val = l.val + 3; omega) | ⟨3, _⟩ => rfl

/-- The reference's first result is the specification's, with the distance as the sum of squared differences. -/
theorem ref_res1 (x y : FVec Ideal S16x1x259x128 .f32) :
    Cert.ReferenceIdeal.Read.val_main_v24 (F := Ideal) x y = Cert.Pool.res1 Cert.Pool.sqDist x y := by
  funext i
  obtain ⟨b, u, l, h, rfl⟩ : ∃ (b : Fin 16) (u : Fin 1) (l : Fin 256) (h : Fin 128), i = ix4 b u l h :=
    ⟨i 0, i 1, i 2, i 3, eq_ix4 i⟩
  obtain rfl : u = 0 := Subsingleton.elim _ _
  rw [Cert.Pool.res1_apply, val_main_v24_apply, val_main_v22_apply, val_main_v20_apply,
    val_main_v18_apply, val_main_v19_apply, val_main_v21_apply, val_main_v23_apply,
    slice0, slice1, slice2, slice3, v17_at, v17_at, v17_at, v17_at]
  rfl

/-- The reference's second result is the specification's, with the distance as the sum of squared differences. -/
theorem ref_res2 (x y : FVec Ideal S16x1x259x128 .f32) :
    Cert.ReferenceIdeal.Read.val_main_v34 (F := Ideal) x y = Cert.Pool.res2 Cert.Pool.sqDist x y := by
  funext i
  obtain ⟨b, u, l, h, rfl⟩ : ∃ (b : Fin 16) (u : Fin 1) (l : Fin 256) (h : Fin 128), i = ix4 b u l h :=
    ⟨i 0, i 1, i 2, i 3, eq_ix4 i⟩
  obtain rfl : u = 0 := Subsingleton.elim _ _
  rw [Cert.Pool.res2_apply, val_main_v34_apply, val_main_v32_apply, val_main_v30_apply,
    val_main_v28_apply, val_main_v29_apply, val_main_v31_apply, val_main_v33_apply,
    slice0', slice1', slice2', slice3', v27_at, v27_at, v27_at, v27_at]
  rfl

end Cert.ReferenceIdeal.RefValue

end
-- ==== Proof.DistLaw.lean ====
/-
  The two spellings of the squared euclidean distance agree on rows of real numbers.

  For real rows `f g : Fin 128 → ℝ` the polarisation identity
  `∑ (f d − g d)² = ∑ f d² + ∑ g d² − 2 · ∑ f d · g d` holds term by term, and a sum of squares is nonnegative, so the
  clamp `max · 0` of the expanded form does nothing. On the extended reals the arithmetic of coercions of reals is the
  coercion of the real arithmetic, so the law carries over to rows all of whose entries are coercions of reals.
  The score tables of the two results differ only in the distance, so the results agree as well.
-/
import proofs.«135549_j11785390260225_2_alg».proof.Proof.PoolSpec
import Idealize.ShloMosaic.PureOps.Ideal.Laws

noncomputable section

open scoped BigOperators

namespace Cert.Pool

open Idealize.ShloMosaic Idealize.ShloMosaic.ValueIdx

/-- The f32 pattern `0x40000000` denotes the real number 2. -/
theorem two_eq : two = ((2 : ℝ) : EReal) := by
  simp [two, Ideal.ofBits, Ideal.ieee, -EReal.coe_mul]; norm_num

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The polarisation identity over the reals. -/
theorem real_polarisation (f g : Fin 128 → ℝ) :
    ((∑ d, f d * f d) + (∑ d, g d * g d)) - 2 * ∑ d, f d * g d = ∑ d, (f d - g d) * (f d - g d) := by
  rw [Finset.mul_sum, ← Finset.sum_add_distrib, ← Finset.sum_sub_distrib]
  exact Finset.sum_congr rfl fun d _ => by ring

/-- The expanded squared distance equals the sum of squared differences on rows of real numbers. -/
theorem sqDistExpanded_eq_sqDist (a b : Row) (ha : ∀ d, ∃ r : ℝ, a d = (r : EReal))
    (hb : ∀ d, ∃ r : ℝ, b d = (r : EReal)) :
    sqDistExpanded a b = sqDist a b := by
  choose f hf using ha
  choose g hg using hb
  obtain rfl : a = fun d => (f d : EReal) := funext hf
  obtain rfl : b = fun d => (g d : EReal) := funext hg
  unfold sqDistExpanded sqDist
  rw [two_eq]
  simp only [← EReal.coe_mul, ← EReal.coe_sub, ← coe_sum, ← EReal.coe_add]
  rw [real_polarisation]
  -- a sum of squares is nonnegative, so the clamp at zero does nothing
  exact max_eq_left (EReal.coe_nonneg.mpr (Finset.sum_nonneg fun d _ => mul_self_nonneg _))

/-- The first result does not depend on the spelling of the distance when both argument arrays hold real numbers. -/
theorem res1_expanded_eq (x y : (⟨4, ![16, 1, 259, 128]⟩ : Shape).Idx → EReal)
    (hx : ∀ i, ∃ r : ℝ, x i = (r : EReal)) (hy : ∀ i, ∃ r : ℝ, y i = (r : EReal)) :
    res1 sqDistExpanded x y = res1 sqDist x y := by
  funext i
  unfold res1 out1 rowSum
  congr 1
  funext j
  exact Finset.sum_congr rfl fun k _ =>
    congrArg score (sqDistExpanded_eq_sqDist _ _ (fun d => hx _) (fun d => hy _))

/-- The same for the second result. -/
theorem res2_expanded_eq (x y : (⟨4, ![16, 1, 259, 128]⟩ : Shape).Idx → EReal)
    (hx : ∀ i, ∃ r : ℝ, x i = (r : EReal)) (hy : ∀ i, ∃ r : ℝ, y i = (r : EReal)) :
    res2 sqDistExpanded x y = res2 sqDist x y := by
  funext i
  unfold res2 out2 colSum
  congr 1
  funext j
  exact Finset.sum_congr rfl fun k _ =>
    congrArg score (sqDistExpanded_eq_sqDist _ _ (fun d => hx _) (fun d => hy _))

end Cert.Pool

end
-- ==== Proof.FiniteInputs.lean ====
/-
  Finite inputs are real numbers.

  The precondition says, of each of the two argument arrays, that every entry's absolute value is strictly below
  +∞ (the conjunction of two reductions by `and` over all axes of the elementwise comparison). On the extended reals
  the absolute value of ⊥ and of ⊤ is ⊤, which is not strictly below ⊤; so every entry is the coercion of a real.
-/
import proofs.«135549_j11785390260225_2_alg».proof.Pre_finite_inputs
import Idealize.ShloMosaic.Lib.ReduceAll
import Idealize.ShloMosaic.Lib.ValueIdx
import Idealize.ShloMosaic.PureOps.Ideal.Laws

noncomputable section

namespace Cert.Pool.Finite

open Idealize.ShloMosaic Idealize.ShloMosaic.ValueIdx

/-- The rank-0 shape has one index. -/
instance : Subsingleton Cert.Pre_finite_inputs.S_.Idx := ⟨fun a b => funext fun d => d.elim0⟩

/-- The f32 pattern `0x7F800000` denotes +∞. -/
theorem inf_eq : Ideal.ofBits .f32 0x7F800000#32 = (⊤ : EReal) := by simp [Ideal.ofBits, Ideal.ieee]

/-- A one-bit word made from a Boolean is 1 exactly when the Boolean is true. -/
theorem ofBool_eq_one {b : Bool} : BitVec.ofBool b = 1#1 ↔ b = true := by cases b <;> decide

/-- An extended real whose absolute value `max a (−a)` compares strictly below +∞ is a real number. -/
theorem real_of_abs_lt_inf (a : EReal)
    (e : Ideal.cmp .olt (max a (-a)) (Ideal.ofBits .f32 0x7F800000#32) = 1#1) : ∃ r : ℝ, a = (r : EReal) := by
  rw [inf_eq] at e
  have lt : max a (-a) < ⊤ := of_decide_eq_true (ofBool_eq_one.1 e)
  induction a using EReal.rec with
  | bot => simp at lt
  | top => simp at lt
  | coe r => exact ⟨r, rfl⟩

/-- One array: if the comparison of `|v|` with the broadcast +∞ is 1 at an index, the entry there is real. -/
theorem real_of_entry (v : FVec Ideal Cert.Pre_finite_inputs.S16x1x259x128 .f32)
    (hbc : Cert.Pre_finite_inputs.S_.BroadcastsInDim Cert.Pre_finite_inputs.S16x1x259x128
      (![] : Fin 0 → Fin Cert.Pre_finite_inputs.S16x1x259x128.rank))
    (i : Cert.Pre_finite_inputs.S16x1x259x128.Idx)
    (e : cmpf .olt (Host.absf v) (broadcastInDim Cert.Pre_finite_inputs.S16x1x259x128 ![] hbc
      (constant (F := Ideal) Cert.Pre_finite_inputs.S_ .f32 0x7F800000#32)) i = 1#1) :
    ∃ r : ℝ, v i = (r : EReal) :=
  real_of_abs_lt_inf (v i) e

/-- Under the precondition every entry of both argument arrays is a real number. -/
theorem real_of_finite_inputs [Cert.Pre_finite_inputs.Facts] (x y : FVec Ideal Cert.Pre_finite_inputs.S16x1x259x128 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨h1, h2⟩ := IntOp.andi_eq_one.1 h0
  exact ⟨fun i => real_of_entry x _ i (Host.reduce_andi_all _ _ _ _ _ h1 i),
    fun i => real_of_entry y _ i (Host.reduce_andi_all _ _ _ _ _ h2 i)⟩

end Cert.Pool.Finite

end
-- ==== Proof.lean ====
/-
  Distance attention with sliding-window pooling: the kernel against its reference, on the extended reals.

  Per batch, with `A` and `B` the 259 × 128 row matrices of the two inputs: the score of rows `j` of `A` and `i` of `B` is
  `1 / (√(‖A j − B i‖² + ε) + 1)`; every row of `A` is weighted by the sum of its scores over `i`, every row of `B` by the
  sum of its scores over `j`, and each output row `l` is the sum of the four weighted rows `l … l+3`.
  The reference takes the squared distance as the sum of squared differences. The kernel, four batches per grid point,
  takes it by the polarisation identity `‖a‖² + ‖b‖² − 2⟨a, b⟩` — the inner products as one batched product — and clamps
  it at zero. On rows of real numbers the two agree (a sum of squares is nonnegative), and the precondition makes every
  input finite, that is, real; sums, the order of additions in the window and every literal are the same on both sides.
  Proof/PoolSpec.lean states the functions, Proof/KernelBlock.lean reads the kernel's body at an entry,
  Proof/KernelArrays.lean assembles its blocks into the result arrays through the reshapes around the call,
  Proof/RefValue.lean reads the reference, Proof/DistLaw.lean is the law, Proof/FiniteInputs.lean the finiteness.
-/
import proofs.«135549_j11785390260225_2_alg».proof.Defs
import proofs.«135549_j11785390260225_2_alg».proof.Proof.Gen.Kernel
import proofs.«135549_j11785390260225_2_alg».proof.Proof.Gen.Kernel.Skeleton
import proofs.«135549_j11785390260225_2_alg».proof.Proof.Gen.Kernel.Launch
import proofs.«135549_j11785390260225_2_alg».proof.Proof.Gen.Kernel.Points
import proofs.«135549_j11785390260225_2_alg».proof.Proof.Gen.Kernel.Frame
import proofs.«135549_j11785390260225_2_alg».proof.Proof.Gen.KernelIdeal
import proofs.«135549_j11785390260225_2_alg».proof.Proof.Gen.KernelIdeal.Skeleton
import proofs.«135549_j11785390260225_2_alg».proof.Proof.Gen.KernelIdeal.Launch
import proofs.«135549_j11785390260225_2_alg».proof.Proof.Gen.KernelIdeal.Points
import proofs.«135549_j11785390260225_2_alg».proof.Proof.Gen.KernelIdeal.Frame
import proofs.«135549_j11785390260225_2_alg».proof.Proof.Gen.ReferenceIdeal
import proofs.«135549_j11785390260225_2_alg».proof.Proof.Gen.ReferenceIdeal.Run
import proofs.«135549_j11785390260225_2_alg».proof.Proof.Gen.ReferenceIdeal.Read
import proofs.«135549_j11785390260225_2_alg».proof.Proof.Gen.Pre_finite_inputs
import proofs.«135549_j11785390260225_2_alg».proof.Proof.KernelArrays
import proofs.«135549_j11785390260225_2_alg».proof.Proof.RefValue
import proofs.«135549_j11785390260225_2_alg».proof.Proof.DistLaw
import proofs.«135549_j11785390260225_2_alg».proof.Proof.FiniteInputs

noncomputable section

namespace Cert.Proof

open Idealize.ShloMosaic Idealize.SL.Sem

/-- The word-level kernel and its idealization run, fault nowhere and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with the window sums of the weighted rows. The kernel's are taken with the expanded, clamped
    squared distance, the reference's with the sum of squared differences; the arguments are finite, hence real numbers,
    and on real rows the two distances agree. -/
theorem algebraic : Cert.algebraic_KernelIdeal_ReferenceIdeal := by
  intro m ρ m' ρ' hpre hagree
  refine ⟨fun c => Cert.Pool.res1 Cert.Pool.sqDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Pool.res2 Cert.Pool.sqDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Arrays.run m ρ)
    obtain ⟨hx, hy⟩ := Cert.Pool.Finite.real_of_finite_inputs _ _ (hpre c)
    exact ⟨(h c).1.trans (Cert.Pool.res1_expanded_eq _ _ hx hy), (h c).2.1.trans (Cert.Pool.res2_expanded_eq _ _ hx hy),
      (h c).2.2.1, (h c).2.2.2⟩
  · refine (θ_run Cert.ReferenceIdeal.defs _ _).mono (fun r h c => ?_) (Cert.ReferenceIdeal.Value.run (F := Ideal) m' ρ')
    refine ⟨?_, ?_, (h c).2.2.1, (h c).2.2.2⟩
    · rw [(h c).1, Cert.ReferenceIdeal.Read.val_main_v24_eq, Cert.ReferenceIdeal.RefValue.ref_res1, (hagree c).1, (hagree c).2]
    · rw [(h c).2.1, Cert.ReferenceIdeal.Read.val_main_v34_eq, Cert.ReferenceIdeal.RefValue.ref_res2, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
